-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S128x32 .f32) (main_arg7 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x256 .f32) (main_arg1 : IVec S800000 32) (main_arg2 : IVec S800000 32) (main_arg3 : FVec F S800000 .f32) (main_arg4 : FVec F S256x128 .f32) (main_arg5 : FVec F S128 .f32) (main_arg6 : FVec F S128x32 .f32) (main_arg7 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S50000x128 : Shape := ⟨2, ![50000, 128]⟩
abbrev S5000x256 : Shape := ⟨2, ![5000, 256]⟩
abbrev S5000x128 : Shape := ⟨2, ![5000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩

abbrev nBuf : Space → Nat
  | .hbm => 45
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x32, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x32, .f32⟩
  | .hbm, ⟨37, _⟩ => ⟨S800000x32, .f32⟩
  | .hbm, ⟨38, _⟩ => ⟨S800000x32, .f32⟩
  | .hbm, ⟨39, _⟩ => ⟨S_, .f32⟩
  | .hbm, ⟨40, _⟩ => ⟨S50000x32, .f32⟩
  | .hbm, ⟨41, _⟩ => ⟨S800000x1, .i32⟩
  | .hbm, ⟨42, _⟩ => ⟨S50000x32, .f32⟩
  | .hbm, ⟨43, _⟩ => ⟨S1x32, .f32⟩
  | .hbm, ⟨44, _⟩ => ⟨S50000x32, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x32_S5000x32_1_0_0_1_n_n_wf : DotDims.WF S5000x128 S128x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x32, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x32, .f32⟩
  | .hbm, ⟨42, _⟩ => ⟨S800000x32, .f32⟩
  | .hbm, ⟨43, _⟩ => ⟨S800000x32, .f32⟩
  | .hbm, ⟨44, _⟩ => ⟨S_, .f32⟩
  | .hbm, ⟨45, _⟩ => ⟨S50000x32, .f32⟩
  | .hbm, ⟨46, _⟩ => ⟨S800000x1, .i32⟩
  | .hbm, ⟨47, _⟩ => ⟨S50000x32, .f32⟩
  | .hbm, ⟨48, _⟩ => ⟨S1x32, .f32⟩
  | .hbm, ⟨49, _⟩ => ⟨S50000x32, .f32⟩
  | .hbm, ⟨50, _⟩ => ⟨S50000x32, .f32⟩
  | .hbm, ⟨51, _⟩ => ⟨S_, .f32⟩
  | .hbm, ⟨52, _⟩ => ⟨S50000x32, .f32⟩
  | .hbm, ⟨53, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.NamedRun.lean ====
/-
  The run of the idealized kernel program with its RESULT named.

  @main is five segments: the first matrix product (a pallas_call over 10 row blocks), the sparse
  aggregation on the host, the fused bias + relu + second matrix product (10 row blocks), the sparse
  aggregation again, and the last bias + relu (10 row blocks). The contents of core `c`'s buffers at the
  five boundaries are a fold from the launch memory, `Gen.W0 … Gen.W5`: a host stretch applies its
  operations (`StableHlo.after`), a region replaces its windows' arrays by what its write-backs leave.
  Every weakly fair execution ends with every unscoped buffer at the last boundary's contents `Gen.W5`;
  read at the result buffer this names the result array, and read at an argument it is the launch
  contents (no segment writes an argument).
-/
import proofs.«102463_j52132313038906_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents of its buffer and every argument array as launched. -/
theorem run_named : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's tokens are the initial resource; no core is given anything else
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      -- the first thread state: every unscoped buffer at its launch contents, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- the last thread state holds every unscoped buffer at `W5`: read them all against the final state
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.GcnRun

end
-- ==== Proof.Project.lean ====
/-
  The first region: S = X · W1, ten row blocks of 5000.

  At grid point `t` the body loads rows [5000·t, 5000·t + 5000) of X (a [50000, 256] array) and the whole of
  W1 ([256, 128]), rounds both to bf16 — the identity on extended reals —, multiplies them into a zero
  accumulator and stores the [5000, 128] product into the same rows of the result. Entry (p, q) of a block's
  product is the sum over k of X(5000·t + p, k) · W1(k, q): the row of the WHOLE product at 5000·t + p. The ten
  blocks tile the result, so after the region the array is the whole product, the reference's one
  `dot_general` of the two arrays.
-/
import proofs.«102463_j52132313038906_1_alg».proof.Proof.Gen.KernelIdeal.Frame
import proofs.«102463_j52132313038906_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen Cert.ReferenceIdeal.Read
open Idealize.ShloMosaic Idealize.ShloMosaic.TcCoe Idealize.ShloMosaic.ValueIdx
open Idealize.SL.Sem
open Idealize.ShloMosaic.Pipeline (Dat Cfg Window)

theorem zero_offsets : (![0, 0] : Fin 2 → Nat) = fun _ => 0 := funext fun a => by fin_cases a <;> rfl

/-- The block product's dimension record: [5000, 256] × [256, 128], contracting the one shared axis. -/
abbrev blockDot := dot_S5000x256_S256x128_S5000x128_1_0_0_1_n_n

/-! ## Which operand entries an output entry of the block product reads -/

theorem lhs_row (i : S5000x128.Idx) (k : blockDot.contr.Idx) : (blockDot.lhsIdx i k 0).val = (i 0).val := by
  unfold DotDims.lhsIdx
  rw [dif_neg (show ¬(0 : Fin S5000x256.rank) ∈ blockDot.lhsBatch by decide), dif_pos (show (0 : Fin S5000x256.rank) ∈ blockDot.lhsNonContracting by decide)]
  rfl
theorem lhs_col (i : S5000x128.Idx) (k : blockDot.contr.Idx) : (blockDot.lhsIdx i k 1).val = (k ⟨0, by decide⟩).val :=
  blockDot.lhsIdx_val_of_single rfl i k
theorem rhs_row (i : S5000x128.Idx) (k : blockDot.contr.Idx) : (blockDot.rhsIdx i k 0).val = (k ⟨0, by decide⟩).val :=
  blockDot.rhsIdx_val_of_single rfl i k
theorem rhs_col (i : S5000x128.Idx) (k : blockDot.contr.Idx) : (blockDot.rhsIdx i k 1).val = (i 1).val := by
  unfold DotDims.rhsIdx
  rw [dif_neg (show ¬(1 : Fin S256x128.rank) ∈ blockDot.rhsBatch by decide), dif_pos (show (1 : Fin S256x128.rank) ∈ blockDot.rhsNonContracting by decide)]
  rfl

/-- The body's stored value at row `p`, column `q` of the block: the sum over the 256 shared positions of the block's
    row `p` against the weights' column `q` (the bf16 roundings are the identity; the accumulator is zero). -/
theorem stored_apply (x0 : FVec Ideal S5000x256 .f32) (x1 : FVec Ideal S256x128 .f32) (p : Fin 5000) (q : Fin 128) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 blockDot 256 rfl rfl).symm]
  refine Finset.sum_congr rfl fun k _ => ?_
  have hk := contrEquiv1_symm_val blockDot 256 rfl rfl k
  have el : blockDot.lhsIdx (ix2 p q) ((contrEquiv1 blockDot 256 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 256 rfl rfl).symm k) = ix2 k q := funext fun a => Fin.ext (by
    match a with
    | ⟨0, _⟩ => exact (rhs_row _ _).trans hk
    | ⟨1, _⟩ => exact rhs_col _ _)
  rw [el, er]
  rfl

/-- The block indices over the grid: X's and the result's row block is the point itself; every column block and
    the weights' block is 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of the whole product: a sum of 256 products whose factors are X's row of `i` and W1's column of `i`. -/
theorem entry_eq (X : FVec Ideal S50000x256 .f32) (W : FVec Ideal S256x128 .f32) (i : S50000x128.Idx)
    (a b : Fin 256 → Ideal .f32) (ha : ∀ k, a k = X (lidx_main_v0 i k)) (hb : ∀ k, b k = W (ridx_main_v0 i k)) :
    ∑ k : Fin 256, a k * b k = val_main_v0 (F := Ideal) X W i := by
  rw [val_main_v0_apply]
  exact Finset.sum_congr rfl fun k _ => by rw [ha k, hb k]

variable (V : (c : Dev nD) → (b : Ref sig .tc) → Buf (Elt Ideal) ((c : Thread nD τ).loc b))

/-- The whole product of the two arrays the region is entered with. -/
abbrev product (c : Dev nD) : FVec Ideal S50000x128 .f32 :=
  val_main_v0 (F := Ideal) (V c main_arg0) (V c main_arg4)

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨e00, e01, e10, e11, e20, e21⟩ := block_index t
  funext y
  obtain ⟨p, q, rfl⟩ : ∃ (p : Fin 5000) (q : Fin 128), y = ix2 p q := ⟨y 0, y 1, eq_ix2 y⟩
  refine (stored_apply (iblk0 V c 0 t) (iblk0 V c 1 t) p q).trans ?_
  refine entry_eq (V c main_arg0) (V c main_arg4) (((cfg0.win 2).blk t).view.emb (ix2 p q))
    (fun k => iblk0 V c 0 t (ix2 p k)) (fun k => iblk0 V c 1 t (ix2 k q)) (fun k => ?_) (fun k => ?_)
  · have h0 : ((cfg0.win 0).blk t).view.emb (ix2 p k) = lidx_main_v0 (((cfg0.win 2).blk t).view.emb (ix2 p q)) k := by
      funext a; apply Fin.ext
      match a with
      | ⟨0, _⟩ => show win0_0.index t (0 : Fin 2) * 5000 + 1 * p.val = win0_2.index t (0 : Fin 2) * 5000 + 1 * p.val; omega
      | ⟨1, _⟩ => show win0_0.index t (1 : Fin 2) * 256 + 1 * k.val = k.val; omega
    show V c main_arg0 (((cfg0.win 0).blk t).view.emb (ix2 p k)) = _
    rw [h0]
  · have h1 : ((cfg0.win 1).blk t).view.emb (ix2 k q) = ridx_main_v0 (((cfg0.win 2).blk t).view.emb (ix2 p q)) k := by
      funext a; apply Fin.ext
      match a with
      | ⟨0, _⟩ => show win0_1.index t (0 : Fin 2) * 256 + 1 * k.val = k.val; omega
      | ⟨1, _⟩ => show win0_1.index t (1 : Fin 2) * 128 + 1 * q.val = win0_2.index t (1 : Fin 2) * 128 + 1 * q.val; omega
    show V c main_arg4 (((cfg0.win 1).blk t).view.emb (ix2 k q)) = _
    rw [h1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` is in the block of point `r / 5000`: the ten blocks tile the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e00, e01, e10, e11, e20, e21⟩ := block_index t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the whole product X · W1 of the arrays it was entered with. -/
theorem result_array (c : Dev nD) : (dat0 V c).arrAt 2 cfg0.N = product V c :=
  (dat0 V c).arrAt_eq_of_cover 2 (product V c) (fun t _ => flushed_eq V c t) cover

end Cert.KernelIdeal.Project

end
-- ==== Proof.ReluBiasProject.lean ====
/-
  The middle region: S2 = relu(A + b) · W2, ten row blocks of 5000.

  At grid point `t` the body loads rows [5000·t, 5000·t + 5000) of the aggregated features A ([50000, 128]), the
  bias as one [1, 128] row and the whole of W2 ([128, 32]); it forms H = max(A + b, 0), rounds H and W2 to bf16
  — the identity on extended reals —, multiplies them into a zero accumulator and stores the [5000, 32] product
  into the same rows of the result. Entry (p, q) of a block's product is the sum over k of
  max(A(5000·t + p, k) + b(k), 0) · W2(k, q): the row of the WHOLE product relu(A + b) · W2 at 5000·t + p. The ten
  blocks tile the result, so after the region the array is that whole product — the reference's bias
  broadcast, add, maximum with the zero splat and one `dot_general`.
-/
import proofs.«102463_j52132313038906_1_alg».proof.Proof.Gen.KernelIdeal.Frame
import proofs.«102463_j52132313038906_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReluBiasProject

open Cert.KernelIdeal Cert.KernelIdeal.Gen Cert.ReferenceIdeal.Read
open Idealize.ShloMosaic Idealize.ShloMosaic.TcCoe Idealize.ShloMosaic.ValueIdx
open Idealize.SL.Sem
open Idealize.ShloMosaic.Pipeline (Dat Cfg Window)

theorem zero_offsets : (![0, 0] : Fin 2 → Nat) = fun _ => 0 := funext fun a => by fin_cases a <;> rfl

/-- The block product's dimension record: [5000, 128] × [128, 32], contracting the one shared axis. -/
abbrev blockDot := dot_S5000x128_S128x32_S5000x32_1_0_0_1_n_n

/-! ## Which operand entries an output entry of the block product reads -/

theorem lhs_row (i : S5000x32.Idx) (k : blockDot.contr.Idx) : (blockDot.lhsIdx i k 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x32.Idx) (k : blockDot.contr.Idx) : (blockDot.lhsIdx i k 1).val = (k ⟨0, by decide⟩).val :=
  blockDot.lhsIdx_val_of_single rfl i k
theorem rhs_row (i : S5000x32.Idx) (k : blockDot.contr.Idx) : (blockDot.rhsIdx i k 0).val = (k ⟨0, by decide⟩).val :=
  blockDot.rhsIdx_val_of_single rfl i k
theorem rhs_col (i : S5000x32.Idx) (k : blockDot.contr.Idx) : (blockDot.rhsIdx i k 1).val = (i 1).val := by
  unfold DotDims.rhsIdx
  rw [dif_neg (show ¬(1 : Fin S128x32.rank) ∈ blockDot.rhsBatch by decide), dif_pos (show (1 : Fin S128x32.rank) ∈ blockDot.rhsNonContracting by decide)]
  rfl

/-- The body's stored value at row `p`, column `q` of the block: the sum over the 128 shared positions of
    max(A(p, k) + b(0, k), 0) against the weights' column `q` (the roundings are the identity, the accumulator zero). -/
theorem stored_apply (x0 : FVec Ideal S5000x128 .f32) (x1 : FVec Ideal S1x128 .f32) (x2 : FVec Ideal S128x32 .f32)
    (p : Fin 5000) (q : Fin 32) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er, truncf_apply, truncf_apply, maximumf_apply, addf_apply, shapeCast_self, shapeCast_self, broadcastTo_1b_ab_apply]
  rfl

/-- The block indices over the grid: the features' and the result's row block is the point itself; every column
    block, the bias's block and the weights' block are 0. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t`'s block of an array, read at (p, q), is the array read at (p, q)'s place in the array. -/
theorem read_at (t : Fin cfg1.N) (G : (⟨Cert.ReferenceIdeal.S50000x32, .f32⟩ : BufTy).Contents (Elt Ideal)) (p : Fin 5000) (q : Fin 32) :
    ((cfg1.win 3).blk t).view.read (Elt Ideal) G (ix2 p q) = G (((cfg1.win 3).blk t).view.emb (ix2 p q)) := rfl

variable (V : (c : Dev nD) → (b : Ref sig .tc) → Buf (Elt Ideal) ((c : Thread nD τ).loc b))

/-- What point `t` writes back is block `t` of the whole product relu(A + b) · W2, when the region is entered with
    the features at the reference's aggregated array, the bias row at the reference's [1, 128] row and the weights
    at W2. -/
theorem flushed_eq (c : Dev nD) (t : Fin cfg1.N)
    (x0 : (⟨Cert.ReferenceIdeal.S50000x256, .f32⟩ : BufTy).Contents (Elt Ideal))
    (x1 x2 : (⟨Cert.ReferenceIdeal.S800000, .i32⟩ : BufTy).Contents (Elt Ideal))
    (x3 : (⟨Cert.ReferenceIdeal.S800000, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S128x32, .f32⟩ : BufTy).Contents (Elt Ideal))
    (hA : V c main_v13 = val_main_v13 (F := Ideal) x0 x1 x2 x3 x4)
    (hb : V c main_v14 = val_main_v14 (F := Ideal) x5)
    (hW : V c main_arg6 = x6) :
    (dat1 V c).flushed 3 t = ((cfg1.win 3).blk t).view.read (Elt Ideal) (val_main_v18 (F := Ideal) x0 x1 x2 x3 x4 x5 x6) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x32) zero_offsets]
  obtain ⟨e00, e01, e10, e11, e20, e21, e30, e31⟩ := block_index t
  funext y
  obtain ⟨p, q, rfl⟩ : ∃ (p : Fin 5000) (q : Fin 32), y = ix2 p q := ⟨y 0, y 1, eq_ix2 y⟩
  refine (stored_apply (iblk1 V c 0 t) (iblk1 V c 1 t) (iblk1 V c 2 t) p q).trans ?_
  refine Eq.trans ?_ (read_at t (val_main_v18 (F := Ideal) x0 x1 x2 x3 x4 x5 x6) p q).symm
  rw [val_main_v18_apply]
  refine Finset.sum_congr rfl fun k _ => ?_
  rw [val_main_v17_apply, val_main_v16_apply, val_main_v15_apply, val_main_call0_v0_apply, val_main_call0_cst_apply]
  have h0 : ((cfg1.win 0).blk t).view.emb (ix2 p k) = lidx_main_v18 (((cfg1.win 3).blk t).view.emb (ix2 p q)) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have h1 : ((cfg1.win 1).blk t).view.emb (ix2 (0 : Fin 1) k)
      = idx_main_v15 (lidx_main_v18 (((cfg1.win 3).blk t).view.emb (ix2 p q)) k) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k q) = ridx_main_v18 (((cfg1.win 3).blk t).view.emb (ix2 p q)) k := by
    funext a; apply Fin.ext
    match a with
    | ⟨0, _⟩ => show win1_2.index t (0 : Fin 2) * 128 + 1 * k.val = k.val; omega
    | ⟨1, _⟩ => show win1_2.index t (1 : Fin 2) * 32 + 1 * q.val = win1_3.index t (1 : Fin 2) * 32 + 1 * q.val; omega
  have ea : iblk1 V c 0 t (ix2 p k)
      = val_main_v13 (F := Ideal) x0 x1 x2 x3 x4 (lidx_main_v18 (((cfg1.win 3).blk t).view.emb (ix2 p q)) k) := by
    show V c main_v13 (((cfg1.win 0).blk t).view.emb (ix2 p k)) = _
    rw [hA, h0]
  have eb : iblk1 V c 1 t (ix2 (0 : Fin 1) k)
      = val_main_v14 (F := Ideal) x5 (idx_main_v15 (lidx_main_v18 (((cfg1.win 3).blk t).view.emb (ix2 p q)) k)) := by
    show V c main_v14 (((cfg1.win 1).blk t).view.emb (ix2 (0 : Fin 1) k)) = _
    rw [hb, h1]
  have ew : iblk1 V c 2 t (ix2 k q) = x6 (ridx_main_v18 (((cfg1.win 3).blk t).view.emb (ix2 p q)) k) := by
    show V c main_arg6 (((cfg1.win 2).blk t).view.emb (ix2 k q)) = _
    rw [hW, h2]
  rw [ea, eb, ew]
  rfl

/-- An index of the result array is in point `t`'s block iff each coordinate is in the block's range on its axis. -/
theorem mem_blk (t : Fin cfg1.N) (i : S50000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v15).slice (win1_3.rect t)).set ↔ _
  rw [View.set_slice_whole, Rect.mem_set_unit]
  exact Iff.rfl

/-- Row `r` is in the block of point `r / 5000`: the ten blocks tile the array. -/
theorem cover (i : S50000x32.Idx) : ∃ t : Fin cfg1.N, (cfg1.win 3).flush t = true ∧ i ∈ ((cfg1.win 3).blk t).view.set := by
  have hi0 : (i 0).val < 50000 := (i 0).isLt
  have hi1 : (i 1).val < 32 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e00, e01, e10, e11, e20, e21, e30, e31⟩ := block_index t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- After the region the result array is the whole product relu(A + b) · W2. -/
theorem result_array (c : Dev nD)
    (x0 : (⟨Cert.ReferenceIdeal.S50000x256, .f32⟩ : BufTy).Contents (Elt Ideal))
    (x1 x2 : (⟨Cert.ReferenceIdeal.S800000, .i32⟩ : BufTy).Contents (Elt Ideal))
    (x3 : (⟨Cert.ReferenceIdeal.S800000, .f32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal))
    (x6 : (⟨Cert.ReferenceIdeal.S128x32, .f32⟩ : BufTy).Contents (Elt Ideal))
    (hA : V c main_v13 = val_main_v13 (F := Ideal) x0 x1 x2 x3 x4)
    (hb : V c main_v14 = val_main_v14 (F := Ideal) x5)
    (hW : V c main_arg6 = x6) :
    (dat1 V c).arrAt 3 cfg1.N = val_main_v18 (F := Ideal) x0 x1 x2 x3 x4 x5 x6 :=
  (dat1 V c).arrAt_eq_of_cover 3 (val_main_v18 (F := Ideal) x0 x1 x2 x3 x4 x5 x6)
    (fun t _ => flushed_eq V c t x0 x1 x2 x3 x4 x5 x6 hA hb hW) cover

end Cert.KernelIdeal.ReluBiasProject

end
-- ==== Proof.ReluBias.lean ====
/-
  The last region: out = relu(A + b), ten row blocks of 5000.

  At grid point `t` the body loads rows [5000·t, 5000·t + 5000) of the aggregated features A (a [50000, 32]
  array), loads the bias as one [1, 32] row, and stores max(A + b, 0) into the same rows of the result.
  The ten blocks tile the result array, so after the region the whole array is the pointwise function
  max(A(r, j) + b(j), 0) of the arrays the region was entered with — which is what the reference computes
  in one piece: a bias broadcast to [50000, 32], an add and a maximum with the zero splat.
-/
import proofs.«102463_j52132313038906_1_alg».proof.Proof.Gen.KernelIdeal.Frame
import proofs.«102463_j52132313038906_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.ReluBias

open Cert.KernelIdeal Cert.KernelIdeal.Gen Cert.ReferenceIdeal.Read
open Idealize.ShloMosaic Idealize.ShloMosaic.TcCoe Idealize.ShloMosaic.ValueIdx
open Idealize.SL.Sem
open Idealize.ShloMosaic.Pipeline (Dat Cfg Window)

theorem zero_offsets : (![0, 0] : Fin 2 → Nat) = fun _ => 0 := funext fun a => by fin_cases a <;> rfl

/-- The body's stored value at row `p`, column `q` of the block: the larger of A(p, q) + b(0, q) and zero. -/
theorem stored_apply (x0 : FVec Ideal S5000x32 .f32) (x1 : FVec Ideal S1x32 .f32) (p : Fin 5000) (q : Fin 32) :
    k2_pay1 (F := Ideal) x0 x1 (ix2 p q)
      = max (x0 (ix2 p q) + x1 (ix2 (0 : Fin 1) q)) (Ideal.ofBits .f32 0x00000000#32) := by
  unfold k2_pay1
  show maximumf (addf (shapeCast S5000x32 x0 _) (broadcastTo S5000x32 (shapeCast S1x32 x1 _) _)) (broadcast S5000x32 _) (ix2 p q) = _
  rw [maximumf_apply, addf_apply, shapeCast_self, shapeCast_self, broadcastTo_1b_ab_apply]
  rfl

/-- The block indices over the grid: the features' and the result's row block is the point itself, every
    column block and the bias's block is 0. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- max(A + b, 0) as one array expression: the features plus the bias row broadcast over the 50000 rows, against the
    zero splat (the reference's own three last operations, applied to any features `A`). -/
abbrev reluBias (A : FVec Ideal S50000x32 .f32) (x7 : (⟨Cert.ReferenceIdeal.S32, .f32⟩ : BufTy).Contents (Elt Ideal)) :
    FVec Ideal S50000x32 .f32 :=
  maximumf (addf A (val_main_v33 (F := Ideal) x7)) (val_main_call1_v0 (F := Ideal))

/-- One entry: if `a` is the features' entry at `i` and `b` the bias at `i`'s column, then max(a + b, 0) is the array
    expression's entry at `i`. -/
theorem entry_eq (A : FVec Ideal S50000x32 .f32) (x7 : (⟨Cert.ReferenceIdeal.S32, .f32⟩ : BufTy).Contents (Elt Ideal))
    (i : S50000x32.Idx) (a b : Ideal .f32) (ha : a = A i) (hb : b = val_main_v32 (F := Ideal) x7 (idx_main_v33 i)) :
    max (a + b) (Ideal.ofBits .f32 0x00000000#32) = reluBias A x7 i := by
  subst ha hb
  show _ = max (A i + val_main_v33 (F := Ideal) x7 i) (val_main_call1_v0 (F := Ideal) i)
  rw [val_main_v33_apply, val_main_call1_v0_apply, val_main_call1_cst_apply]
  rfl

variable (V : (c : Dev nD) → (b : Ref sig .tc) → Buf (Elt Ideal) ((c : Thread nD τ).loc b))

/-- What point `t` writes back is block `t` of max(A + b, 0), A the features and b the bias row as the region
    finds them. -/
theorem flushed_eq (c : Dev nD) (t : Fin cfg2.N) (x7 : (⟨Cert.ReferenceIdeal.S32, .f32⟩ : BufTy).Contents (Elt Ideal))
    (hb : V c main_v29 = val_main_v32 (F := Ideal) x7) :
    (dat2 V c).flushed 2 t = ((cfg2.win 2).blk t).view.read (Elt Ideal) (reluBias (V c main_v28) x7) := by
  show (cfg2.win 2).cut (grid2.coords t) ((dat2 V c).after 2 t) = _
  rw [after2_2]
  unfold out2_2
  rw [View.canon_unit_zero zero_offsets]
  simp only [View.ld_unit_zero (S := S5000x32) zero_offsets, View.ld_unit_zero (S := S1x32) zero_offsets]
  obtain ⟨e00, e01, e10, e11, e20, e21⟩ := block_index t
  funext y
  obtain ⟨p, q, rfl⟩ : ∃ (p : Fin 5000) (q : Fin 32), y = ix2 p q := ⟨y 0, y 1, eq_ix2 y⟩
  refine (stored_apply (iblk2 V c 0 t) (iblk2 V c 1 t) p q).trans ?_
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 32 + 1 * q.val = win2_2.index t (1 : Fin 2) * 32 + 1 * q.val; omega
  have h1 : ((cfg2.win 1).blk t).view.emb (ix2 (0 : Fin 1) q) = idx_main_v33 (((cfg2.win 2).blk t).view.emb (ix2 p q)) := by
    funext a; apply Fin.ext
    match a with
    | ⟨0, _⟩ => show win2_1.index t (0 : Fin 2) * 1 + 1 * 0 = 0; omega
    | ⟨1, _⟩ => show win2_1.index t (1 : Fin 2) * 32 + 1 * q.val = win2_2.index t (1 : Fin 2) * 32 + 1 * q.val; omega
  refine entry_eq (V c main_v28) x7 (((cfg2.win 2).blk t).view.emb (ix2 p q)) _ _ ?_ ?_
  · show V c main_v28 (((cfg2.win 0).blk t).view.emb (ix2 p q)) = V c main_v28 (((cfg2.win 2).blk t).view.emb (ix2 p q))
    rw [h0]
  · show V c main_v29 (((cfg2.win 1).blk t).view.emb (ix2 (0 : Fin 1) q)) = _
    rw [hb, h1]

/-- An index of the result array is in point `t`'s block iff each coordinate is in the block's range on its axis. -/
theorem mem_blk (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v30).slice (win2_2.rect t)).set ↔ _
  rw [View.set_slice_whole, Rect.mem_set_unit]
  exact Iff.rfl

/-- Row `r` is in the block of point `r / 5000`: the ten blocks tile the array. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨e00, e01, e10, e11, e20, e21⟩ := block_index t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- After the region the result array is max(A + b, 0) as ONE array expression: the features as entered plus the
    bias row broadcast over the rows, against the zero splat. -/
theorem result_array (c : Dev nD) (x7 : (⟨Cert.ReferenceIdeal.S32, .f32⟩ : BufTy).Contents (Elt Ideal))
    (hb : V c main_v29 = val_main_v32 (F := Ideal) x7) :
    (dat2 V c).arrAt 2 cfg2.N = reluBias (V c main_v28) x7 :=
  (dat2 V c).arrAt_eq_of_cover 2 (reluBias (V c main_v28) x7) (fun t _ => flushed_eq V c t x7 hb) cover

end Cert.KernelIdeal.ReluBias

end
-- ==== Proof.Aggregate.lean ====
/-
  The two host stretches: the sparse aggregation, and what a region is entered with.

  Between the regions @main runs the same seventeen host lines twice: wrap a negative column index by +50000,
  gather the rows of the current features at the edges' columns, scale each gathered row by its edge weight,
  and scatter-add the scaled rows into a zero array at the edges' rows; then reshape the layer's bias vector to a
  one-row array. The reference runs the same gather / multiply / scatter-add lines on its own features, so
  once the features agree the aggregated arrays agree, whatever a gather or scatter-add does with an index out
  of range: the two lines are never opened. The bias row differs in spelling only: the kernel's `reshape` of
  [n] to [1, n] and the reference's `broadcast_in_dim` of [n] along axis 1 both put b(j) at (0, j).
-/
import proofs.«102463_j52132313038906_1_alg».proof.Proof.Gen.KernelIdeal.Frame
import proofs.«102463_j52132313038906_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Aggregate

open Cert.KernelIdeal Cert.KernelIdeal.Gen Cert.ReferenceIdeal.Read
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The bias row -/

/-- A vector reshaped to one row is the vector broadcast along axis 1 of a one-row array: b(j) at (0, j). -/
theorem bias_row128 (b : FVec Ideal S128 .f32) :
    (shapeCast S1x128 b shapeCasts_S128_S1x128 : FVec Ideal S1x128 .f32) = val_main_v14 (F := Ideal) b := by
  funext i
  obtain ⟨u, j, rfl⟩ : ∃ (u : Fin 1) (j : Fin 128), i = ix2 u j := ⟨i 0, i 1, eq_ix2 i⟩
  rw [val_main_v14_apply]
  refine (shapeCast_a_1a_apply b shapeCasts_S128_S1x128 u j).trans (congrArg b (funext fun a => ?_))
  match a with
  | ⟨0, _⟩ => rfl

theorem bias_row32 (b : FVec Ideal S32 .f32) :
    (shapeCast S1x32 b shapeCasts_S32_S1x32 : FVec Ideal S1x32 .f32) = val_main_v32 (F := Ideal) b := by
  funext i
  obtain ⟨u, j, rfl⟩ : ∃ (u : Fin 1) (j : Fin 32), i = ix2 u j := ⟨i 0, i 1, eq_ix2 i⟩
  rw [val_main_v32_apply]
  refine (shapeCast_a_1a_apply b shapeCasts_S32_S1x32 u j).trans (congrArg b (funext fun a => ?_))
  match a with
  | ⟨0, _⟩ => rfl

/-! ## The second region's entry: after the first stretch -/

/-- The aggregated features the second region is entered with: the reference's first aggregation, once the first
    region's result is the reference's first product. -/
theorem entry1_features (c : Dev nD)
    (h0 : W1 m ρ c (Proc.devRef .tc main_v0)
      = val_main_v0 (F := Ideal) (m ((c : Thread nD τ).loc main_arg0)) (m ((c : Thread nD τ).loc main_arg4))) :
    V2 m ρ c main_v13 = val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  show StableHlo.after hostOps1 (W1 m ρ c) (Proc.devRef .tc main_v13) = _
  after_results
  rw [h0, W1_of_ne m ρ c main_arg1 (by decide), W1_of_ne m ρ c main_arg2 (by decide), W1_of_ne m ρ c main_arg3 (by decide)]
  rfl

/-- The bias row the second region is entered with. -/
theorem entry1_bias (c : Dev nD) : V2 m ρ c main_v14 = val_main_v14 (F := Ideal) (m ((c : Thread nD τ).loc main_arg5)) := by
  show StableHlo.after hostOps1 (W1 m ρ c) (Proc.devRef .tc main_v14) = _
  after_results
  rw [W1_of_ne m ρ c main_arg5 (by decide)]
  exact bias_row128 (m ((c : Thread nD τ).loc main_arg5))

/-- The second weights are as launched. -/
theorem entry1_weights (c : Dev nD) : V2 m ρ c main_arg6 = m ((c : Thread nD τ).loc main_arg6) := by
  show StableHlo.after hostOps1 (W1 m ρ c) (Proc.devRef .tc main_arg6) = _
  after_results
  exact W1_of_ne m ρ c main_arg6 (by decide)

/-! ## The third region's entry: after the second stretch -/

/-- An argument that neither stretch writes and that is no array of the first two regions is as launched when the
    second stretch starts. -/
theorem kept_arg1 (c : Dev nD) : W3 m ρ c (Proc.devRef .tc main_arg1) = m ((c : Thread nD τ).loc main_arg1) := by
  rw [W3_of_ne m ρ c main_arg1 (by decide)]
  show StableHlo.after hostOps1 (W1 m ρ c) (Proc.devRef .tc main_arg1) = _
  after_results
  exact W1_of_ne m ρ c main_arg1 (by decide)
theorem kept_arg2 (c : Dev nD) : W3 m ρ c (Proc.devRef .tc main_arg2) = m ((c : Thread nD τ).loc main_arg2) := by
  rw [W3_of_ne m ρ c main_arg2 (by decide)]
  show StableHlo.after hostOps1 (W1 m ρ c) (Proc.devRef .tc main_arg2) = _
  after_results
  exact W1_of_ne m ρ c main_arg2 (by decide)
theorem kept_arg3 (c : Dev nD) : W3 m ρ c (Proc.devRef .tc main_arg3) = m ((c : Thread nD τ).loc main_arg3) := by
  rw [W3_of_ne m ρ c main_arg3 (by decide)]
  show StableHlo.after hostOps1 (W1 m ρ c) (Proc.devRef .tc main_arg3) = _
  after_results
  exact W1_of_ne m ρ c main_arg3 (by decide)
theorem kept_arg7 (c : Dev nD) : W3 m ρ c (Proc.devRef .tc main_arg7) = m ((c : Thread nD τ).loc main_arg7) := by
  rw [W3_of_ne m ρ c main_arg7 (by decide)]
  show StableHlo.after hostOps1 (W1 m ρ c) (Proc.devRef .tc main_arg7) = _
  after_results
  exact W1_of_ne m ρ c main_arg7 (by decide)

set_option maxHeartbeats 1000000 in
/-- The aggregated features the last region is entered with: the reference's second aggregation, once the second
    region's result is the reference's second product. -/
theorem entry2_features (c : Dev nD)
    (h1 : W3 m ρ c (Proc.devRef .tc main_v15)
      = val_main_v18 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) :
    V4 m ρ c main_v28 = val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  show StableHlo.after hostOps2 (W3 m ρ c) (Proc.devRef .tc main_v28) = _
  after_results_simp
  rw [h1, kept_arg1 m ρ c, kept_arg2 m ρ c, kept_arg3 m ρ c]
  rfl

/-- The bias row the last region is entered with. -/
theorem entry2_bias (c : Dev nD) : V4 m ρ c main_v29 = val_main_v32 (F := Ideal) (m ((c : Thread nD τ).loc main_arg7)) := by
  show StableHlo.after hostOps2 (W3 m ρ c) (Proc.devRef .tc main_v29) = _
  after_results
  rw [kept_arg7 m ρ c]
  exact bias_row32 (m ((c : Thread nD τ).loc main_arg7))

end Cert.KernelIdeal.Aggregate

end
-- ==== Proof.Result.lean ====
/-
  The result of the idealized kernel program is the reference's result, as one function of the arguments.

  Segment by segment from the launch memory: the first region leaves the whole product X · W1 (the blocks tile the
  array); the first host stretch aggregates it over the edges and reshapes the first bias; the second region
  leaves relu(A1 + b1) · W2; the second stretch aggregates that and reshapes the second bias; the last region
  leaves relu(A2 + b2). Each of these is the corresponding stage of the reference at the same arguments, so the
  result array at the last boundary is the reference's last stage.
-/
import proofs.«102463_j52132313038906_1_alg».proof.Proof.Project
import proofs.«102463_j52132313038906_1_alg».proof.Proof.ReluBiasProject
import proofs.«102463_j52132313038906_1_alg».proof.Proof.ReluBias
import proofs.«102463_j52132313038906_1_alg».proof.Proof.Aggregate

set_option maxRecDepth 16384

noncomputable section

namespace Cert.KernelIdeal.GcnResult

open Cert.KernelIdeal Cert.KernelIdeal.Gen Cert.ReferenceIdeal.Read
open Idealize.ShloMosaic Idealize.ShloMosaic.TcCoe
open Idealize.SL.Sem

variable (m : (ℓ : Loc nD τ sig) → Buf (Elt Ideal) ℓ) (ρ : Dev nD → PrngReg)

/-- After the first region the product's buffer holds the reference's first product of the launch arguments. -/
theorem first_product (c : Dev nD) :
    W1 m ρ c (Proc.devRef .tc main_v0)
      = val_main_v0 (F := Ideal) (m ((c : Thread nD τ).loc main_arg0)) (m ((c : Thread nD τ).loc main_arg4)) :=
  (W1_arr m ρ c 2).trans (Project.result_array (V0 m ρ) c)

/-- After the second region its result buffer holds the reference's second product of the launch arguments. -/
theorem second_product (c : Dev nD) :
    W3 m ρ c (Proc.devRef .tc main_v15)
      = val_main_v18 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) :=
  (W3_arr m ρ c 3).trans (ReluBiasProject.result_array (V2 m ρ) c _ _ _ _ _ _ _
    (Aggregate.entry1_features m ρ c (first_product m ρ c)) (Aggregate.entry1_bias m ρ c) (Aggregate.entry1_weights m ρ c))

/-- At the last boundary the result buffer holds the reference's result of the launch arguments. -/
theorem result_eq (c : Dev nD) :
    W5 m ρ c (Proc.devRef .tc main_v30)
      = val_main_v35 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((W5_arr m ρ c 2).trans (ReluBias.result_array (V4 m ρ) c (m ((c : Thread nD τ).loc main_arg7)) (Aggregate.entry2_bias m ρ c))).trans ?_
  unfold ReluBias.reluBias
  rw [Aggregate.entry2_features m ρ c (second_product m ρ c)]
  rfl

end Cert.KernelIdeal.GcnResult

end
-- ==== Proof.lean ====
/-
  A two-layer graph convolution against its jnp reference, equal as extended reals.

  Both programs compute  out = relu(Agg(relu(Agg(X · W1) + b1) · W2) + b2),  where Agg(H) gathers the rows of H at
  the edges' column indices, scales each by its edge weight and scatter-adds them at the edges' row indices.
  The reference is host operations only. The kernel program runs the two matrix products and the last
  bias + relu as three pallas_calls, each over ten row blocks of 5000 — the second with the first layer's
  bias + relu fused in front of its product — and runs Agg on the host, by the same lines as the reference.

  At the ideal instance a change of float format is the identity, a matrix product into a zero accumulator is the
  plain sum over the shared axis, and the ten row blocks of a region tile its result array; so each region leaves
  the reference's corresponding whole-array stage (Proof/Project, Proof/ReluBiasProject, Proof/ReluBias), each host
  stretch maps equal features to equal aggregates (Proof/Aggregate), and the result at the end of the run
  (Proof/NamedRun) is the reference's last stage of the same arguments (Proof/Result). No law is used that needs a
  finite operand: the sums are never regrouped, only re-indexed; the precondition is not opened.
  The ideal pass rewrote nothing in the kernel program, so `preserves` has no conjunct.
-/
import proofs.«102463_j52132313038906_1_alg».proof.Defs
import proofs.«102463_j52132313038906_1_alg».proof.Proof.Gen.Kernel
import proofs.«102463_j52132313038906_1_alg».proof.Proof.Gen.Kernel.Skeleton
import proofs.«102463_j52132313038906_1_alg».proof.Proof.Gen.Kernel.Launch
import proofs.«102463_j52132313038906_1_alg».proof.Proof.Gen.Kernel.Points
import proofs.«102463_j52132313038906_1_alg».proof.Proof.Gen.Kernel.Frame
import proofs.«102463_j52132313038906_1_alg».proof.Proof.Gen.KernelIdeal
import proofs.«102463_j52132313038906_1_alg».proof.Proof.Gen.KernelIdeal.Skeleton
import proofs.«102463_j52132313038906_1_alg».proof.Proof.Gen.KernelIdeal.Launch
import proofs.«102463_j52132313038906_1_alg».proof.Proof.Gen.KernelIdeal.Points
import proofs.«102463_j52132313038906_1_alg».proof.Proof.Gen.KernelIdeal.Frame
import proofs.«102463_j52132313038906_1_alg».proof.Proof.Gen.ReferenceIdeal
import proofs.«102463_j52132313038906_1_alg».proof.Proof.Gen.ReferenceIdeal.Run
import proofs.«102463_j52132313038906_1_alg».proof.Proof.Gen.ReferenceIdeal.Read
import proofs.«102463_j52132313038906_1_alg».proof.Proof.Gen.Pre_finite_inputs
import proofs.«102463_j52132313038906_1_alg».proof.Proof.NamedRun
import proofs.«102463_j52132313038906_1_alg».proof.Proof.Result
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories that agree on the arguments both programs end with the reference's last stage of those
    arguments in their result buffers: the kernel program by its five segments, the reference by its run. -/
theorem algebraic : Cert.algebraic_KernelIdeal_ReferenceIdeal := by
  intro m ρ m' ρ' _ hagree
  refine ⟨fun c => Cert.ReferenceIdeal.Read.val_main_v35 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.GcnResult.result_eq m ρ c), (h c).2⟩)
      (Cert.KernelIdeal.GcnRun.run_named m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.Read.val_main_v35_eq _ _ _ _ _ _ _ _

theorem claim : Cert.Claim := ⟨Cert.Kernel.Gen.facts, Cert.KernelIdeal.Gen.facts, Cert.ReferenceIdeal.Gen.facts,
  Cert.Pre_finite_inputs.Gen.facts, frame_kernel, frame_kernel_ideal, frame_reference, preserves, algebraic⟩

end Cert.Proof

end
